-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192x64 : Shape := ⟨2, ![8192, 64]⟩
abbrev S4096x4096 : Shape := ⟨2, ![4096, 4096]⟩
abbrev S64x4096 : Shape := ⟨2, ![64, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S64x4096 : S_.BroadcastsInDim S64x4096 (![] : Fin 0 → Fin S64x4096.rank)
  reducesTo_S64x4096_S_d0_1 : S64x4096.ReducesTo [0, 1] S_

variable [Facts]

def fn_part1 {F : FTy → Type} [FloatOps F] (main_arg4 : FVec F S64x4096 .f32) (main_v13 : IVec S_ 1) (main_v16 : IVec S64x4096 1) : IVec S_ 1 :=
  let main_c_5 : IVec S_ 1 := constantI S_ 1 1#1
  let main_v17 : IVec S_ 1 := (fun x v => Host.reduce IntOp.andi x v reducesTo_S64x4096_S_d0_1 h_S_) main_v16 main_c_5
  let main_v18 : IVec S_ 1 := andi main_v13 main_v17
  let main_v19 : FVec F S64x4096 .f32 := Host.absf main_arg4
  let main_cst_6 : FVec F S_ .f32 := constant S_ .f32 0x7F800000#32
  let main_v20 : FVec F S64x4096 .f32 := broadcastInDim S64x4096 ![] bcast_S_S64x4096 main_cst_6
  let main_v21 : IVec S64x4096 1 := cmpf .olt main_v19 main_v20
  let main_c_7 : IVec S_ 1 := constantI S_ 1 1#1
  let main_v22 : IVec S_ 1 := (fun x v => Host.reduce IntOp.andi x v reducesTo_S64x4096_S_d0_1 h_S_) main_v21 main_c_7
  let main_v23 : IVec S_ 1 := andi main_v18 main_v22
  main_v23

def fn {F : FTy → Type} [FloatOps F] (main_arg0 : FVec F S8192x4096 .f32) (main_arg1 : FVec F S8192x64 .f32) (main_arg2 : FVec F S4096x4096 .f32) (main_arg3 : FVec F S64x4096 .f32) (main_arg4 : FVec F S64x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S64x4096 .f32 := Host.absf main_arg3
  let main_cst_4 : FVec F S_ .f32 := constant S_ .f32 0x7F800000#32
  let main_v15 : FVec F S64x4096 .f32 := broadcastInDim S64x4096 ![] bcast_S_S64x4096 main_cst_4
  let main_v16 : IVec S64x4096 1 := cmpf .olt main_v14 main_v15
  fn_part1 (F := F) main_arg4 main_v13 main_v16
-- ==== Kernel.lean ====
abbrev S8192x4096 : Shape := ⟨2, ![8192, 4096]⟩
abbrev S8192x64 : Shape := ⟨2, ![8192, 64]⟩
abbrev S4096x4096 : Shape := ⟨2, ![4096, 4096]⟩
abbrev S64x4096 : Shape := ⟨2, ![64, 4096]⟩
abbrev S128x4096 : Shape := ⟨2, ![128, 4096]⟩
abbrev S128x64 : Shape := ⟨2, ![128, 64]⟩

abbrev nBuf : Space → Nat
  | .hbm => 7
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S8192x64, .f32⟩
  | .hbm, ⟨2, _⟩ => ⟨S4096x4096, .f32⟩
  | .hbm, ⟨3, _⟩ => ⟨S64x4096, .f32⟩
  | .hbm, ⟨4, _⟩ => ⟨S64x4096, .f32⟩
  | .hbm, ⟨5, _⟩ => ⟨S4096x4096, .bf16⟩
  | .hbm, ⟨6, _⟩ => ⟨S8192x4096, .f32⟩
  | .local _ .vmem, ⟨0, _⟩ => ⟨S128x4096, .f32⟩
  | .local _ .vmem, ⟨1, _⟩ => ⟨S128x4096, .f32⟩
  | .local _ .vmem, ⟨2, _⟩ => ⟨S128x64, .f32⟩
  | .local _ .vmem, ⟨3, _⟩ => ⟨S128x64, .f32⟩
  | .local _ .vmem, ⟨4, _⟩ => ⟨S4096x4096, .bf16⟩
  | .local _ .vmem, ⟨5, _⟩ => ⟨S64x4096, .f32⟩
  | .local _ .vmem, ⟨6, _⟩ => ⟨S64x4096, .f32⟩
  | .local _ .vmem, ⟨7, _⟩ => ⟨S128x4096, .f32⟩
  | .local _ .vmem, ⟨8, _⟩ => ⟨S128x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64x4096_S64x4096_0_0 : ∀ a, (![0, 0] : Fin 2 → Nat) a + S64x4096.size a ≤ S64x4096.size a
  h_S64x4096 : 0 < S64x4096.numel
  inb_S128x4096_S128x4096_0_0 : ∀ a, (![0, 0] : Fin 2 → Nat) a + S128x4096.size a ≤ S128x4096.size a
  h_S128x4096 : 0 < S128x4096.numel
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  dot_S128x64_S64x4096_S128x4096_1_0_0_1_n_n_wf : DotDims.WF S128x64 S64x4096 S128x4096 [1] [0] [0] [1] [] []
  dot_S128x4096_S4096x4096_S128x4096_1_0_0_1_n_n_wf : DotDims.WF S128x4096 S4096x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S8192x64.size a
  hwx0_1 : ∀ i : grid0.Coords, EltTy.bits .f32 = 32 ∨ (Rect.block (s := S8192x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x4096.size a ≤ S4096x4096.size a
  hwx0_2 : ∀ i : grid0.Coords, EltTy.bits .bf16 = 32 ∨ (Rect.block (s := S4096x4096) S4096x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x4096.size a ≤ S64x4096.size a
  hwx0_3 : ∀ i : grid0.Coords, EltTy.bits .f32 = 32 ∨ (Rect.block (s := S64x4096) S64x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x4096.size a ≤ S64x4096.size a
  hwx0_4 : ∀ i : grid0.Coords, EltTy.bits .f32 = 32 ∨ (Rect.block (s := S64x4096) S64x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x4096.size a ≤ S8192x4096.size a
  hwx0_5 : ∀ i : grid0.Coords, EltTy.bits .f32 = 32 ∨ (Rect.block (s := S8192x4096) S128x4096.size (cc0_transform_5 i) (hinb0_5 i)).WholeWords (EltTy.packing .f32)

variable [Facts₀]

def dot_S128x64_S64x4096_S128x4096_1_0_0_1_n_n : DotDims S128x64 S64x4096 S128x4096 where
  lhsContracting := [1]
  rhsContracting := [0]
  lhsNonContracting := [0]
  rhsNonContracting := [1]
  lhsBatch := []
  rhsBatch := []
  wf := dot_S128x64_S64x4096_S128x4096_1_0_0_1_n_n_wf
def dot_S128x4096_S4096x4096_S128x4096_1_0_0_1_n_n : DotDims S128x4096 S4096x4096 S128x4096 where
  lhsContracting := [1]
  rhsContracting := [0]
  lhsNonContracting := [0]
  rhsNonContracting := [1]
  lhsBatch := []
  rhsBatch := []
  wf := dot_S128x4096_S4096x4096_S128x4096_1_0_0_1_n_n_wf

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S128x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S8192x64 : Shape := ⟨2, ![8192, 64]⟩
abbrev S4096x4096 : Shape := ⟨2, ![4096, 4096]⟩
abbrev S64x4096 : Shape := ⟨2, ![64, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x64, .f32⟩
  | .hbm, ⟨2, _⟩ => ⟨S4096x4096, .f32⟩
  | .hbm, ⟨3, _⟩ => ⟨S64x4096, .f32⟩
  | .hbm, ⟨4, _⟩ => ⟨S64x4096, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]

class Facts₀ : Prop where
  dot_S8192x64_S64x4096_S8192x4096_1_0_0_1_n_n_wf : DotDims.WF S8192x64 S64x4096 S8192x4096 [1] [0] [0] [1] [] []
  dot_S8192x4096_S4096x4096_S8192x4096_1_0_0_1_n_n_wf : DotDims.WF S8192x4096 S4096x4096 S8192x4096 [1] [0] [0] [1] [] []

variable [Facts₀]

def dot_S8192x64_S64x4096_S8192x4096_1_0_0_1_n_n : DotDims S8192x64 S64x4096 S8192x4096 where
  lhsContracting := [1]
  rhsContracting := [0]
  lhsNonContracting := [0]
  rhsNonContracting := [1]
  lhsBatch := []
  rhsBatch := []
  wf := dot_S8192x64_S64x4096_S8192x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  The function both programs compute, index by index, on the extended reals.

  With `x` the [8192, 4096] data, `cl` the [8192, 64] cluster weights, `w` the [4096, 4096] weight and `sL`, `sR` the two
  [64, 4096] style tables, row `b` and column `o` of the result is

      (∑ k, (x[b, k] · ∑ j, cl[b, j] · sL[j, k]) · w[k, o]) · ∑ j, cl[b, j] · sR[j, o]:

  the data modulated on the left by the row's mixture of the left styles, multiplied into the weight, and the product
  modulated on the right by the row's mixture of the right styles. Row `b` of the result depends on row `b` of `x` and of
  `cl` only, so the result can be computed 128 rows at a time; that is the only difference between the two programs, and no
  law of arithmetic is needed to join them.
-/
import Idealize.ShloMosaic.PureOps.Ideal
import Idealize.ShloMosaic.Lib.ValueIdx

noncomputable section

namespace Cert.Spec

open Idealize.ShloMosaic Idealize.ShloMosaic.ValueIdx

/-- The row's mixture of a style table at a column: `∑ j, cl[b, j] · s[j, k]`. -/
def mix (cl : (⟨2, ![8192, 64]⟩ : Shape).Idx → EReal) (s : (⟨2, ![64, 4096]⟩ : Shape).Idx → EReal) (b : Fin 8192) (k : Fin 4096) : EReal :=
  ∑ j : Fin 64, cl (ix2 b j) * s (ix2 j k)

/-- The result at row `b`, column `o`. -/
def modAt (x : (⟨2, ![8192, 4096]⟩ : Shape).Idx → EReal) (cl : (⟨2, ![8192, 64]⟩ : Shape).Idx → EReal)
    (w : (⟨2, ![4096, 4096]⟩ : Shape).Idx → EReal) (sL sR : (⟨2, ![64, 4096]⟩ : Shape).Idx → EReal) (b : Fin 8192) (o : Fin 4096) : EReal :=
  (∑ k : Fin 4096, (x (ix2 b k) * mix cl sL b k) * w (ix2 k o)) * mix cl sR b o

/-- The whole result array. -/
def modulated (x : (⟨2, ![8192, 4096]⟩ : Shape).Idx → EReal) (cl : (⟨2, ![8192, 64]⟩ : Shape).Idx → EReal)
    (w : (⟨2, ![4096, 4096]⟩ : Shape).Idx → EReal) (sL sR : (⟨2, ![64, 4096]⟩ : Shape).Idx → EReal) :
    (⟨2, ![8192, 4096]⟩ : Shape).Idx → EReal :=
  fun i => modAt x cl w sL sR (i 0) (i 1)

end Cert.Spec

end
-- ==== Proof.KernelAt.lean ====
/-
  One grid point's arithmetic read at an entry of its [128, 4096] block, on the extended reals.

  The body multiplies the point's 128 cluster rows into the left style table (a product into a zero accumulator: a plain
  sum over the 64 clusters), scales the point's 128 data rows entry by entry, multiplies the scaled rows into the weight
  (again a plain sum, over the 4096 inputs; the change of float format on the way in is the identity on the extended
  reals), and scales the product entry by entry by the cluster rows' product with the right style table. So entry (p, q) of
  the block is

      (∑ k, (x[p, k] · ∑ j, cl[p, j] · sL[j, k]) · w[k, q]) · ∑ j, cl[p, j] · sR[j, q]

  over the point's own blocks.
-/
import proofs.«175183_j74191265071761_2_alg».proof.Proof.Gen.KernelIdeal.Skeleton
import proofs.«175183_j74191265071761_2_alg».proof.Proof.Spec
import Idealize.ShloMosaic.PureOps.Ideal.Laws
import Idealize.ShloMosaic.Lib.ValueIdx
import Idealize.ShloMosaic.Lib.Pipeline.Value

noncomputable section

namespace Cert.KernelIdeal.At

open Cert.KernelIdeal Cert.KernelIdeal.Gen Idealize.ShloMosaic Idealize.ShloMosaic.ValueIdx

/-! ## The two products' operand indices -/

local notation "Ds" => dot_S128x64_S64x4096_S128x4096_1_0_0_1_n_n
local notation "Db" => dot_S128x4096_S4096x4096_S128x4096_1_0_0_1_n_n

theorem ds_lhs0 (i : S128x4096.Idx) (q : (Ds).contr.Idx) : ((Ds).lhsIdx i q 0).val = (i 0).val := by
  unfold DotDims.lhsIdx
  rw [dif_neg (show ¬(0 : Fin S128x64.rank) ∈ (Ds).lhsBatch by decide), dif_pos (show (0 : Fin S128x64.rank) ∈ (Ds).lhsNonContracting by decide)]
  rfl
theorem ds_lhs1 (i : S128x4096.Idx) (q : (Ds).contr.Idx) : ((Ds).lhsIdx i q 1).val = (q ⟨0, by decide⟩).val :=
  (Ds).lhsIdx_val_of_single rfl i q
theorem ds_rhs0 (i : S128x4096.Idx) (q : (Ds).contr.Idx) : ((Ds).rhsIdx i q 0).val = (q ⟨0, by decide⟩).val :=
  (Ds).rhsIdx_val_of_single rfl i q
theorem ds_rhs1 (i : S128x4096.Idx) (q : (Ds).contr.Idx) : ((Ds).rhsIdx i q 1).val = (i 1).val := by
  unfold DotDims.rhsIdx
  rw [dif_neg (show ¬(1 : Fin S64x4096.rank) ∈ (Ds).rhsBatch by decide), dif_pos (show (1 : Fin S64x4096.rank) ∈ (Ds).rhsNonContracting by decide)]
  rfl

theorem db_lhs0 (i : S128x4096.Idx) (q : (Db).contr.Idx) : ((Db).lhsIdx i q 0).val = (i 0).val := by
  unfold DotDims.lhsIdx
  rw [dif_neg (show ¬(0 : Fin S128x4096.rank) ∈ (Db).lhsBatch by decide), dif_pos (show (0 : Fin S128x4096.rank) ∈ (Db).lhsNonContracting by decide)]
  rfl
theorem db_lhs1 (i : S128x4096.Idx) (q : (Db).contr.Idx) : ((Db).lhsIdx i q 1).val = (q ⟨0, by decide⟩).val :=
  (Db).lhsIdx_val_of_single rfl i q
theorem db_rhs0 (i : S128x4096.Idx) (q : (Db).contr.Idx) : ((Db).rhsIdx i q 0).val = (q ⟨0, by decide⟩).val :=
  (Db).rhsIdx_val_of_single rfl i q
theorem db_rhs1 (i : S128x4096.Idx) (q : (Db).contr.Idx) : ((Db).rhsIdx i q 1).val = (i 1).val := by
  unfold DotDims.rhsIdx
  rw [dif_neg (show ¬(1 : Fin S4096x4096.rank) ∈ (Db).rhsBatch by decide), dif_pos (show (1 : Fin S4096x4096.rank) ∈ (Db).rhsNonContracting by decide)]
  rfl

/-! ## The two products at an entry -/

/-- The [128, 64] by [64, 4096] product into the zero accumulator, at entry (p, q): the sum over the 64 clusters. -/
theorem small_apply (l : Vec Ideal S128x64 .f32) (r : Vec Ideal S64x4096 .f32) (p : Fin 128) (q : Fin 4096) :
    matmul (φ₁ := .f32) (φ₂ := .f32) Ds none l r (constant (F := Ideal) S128x4096 .f32 0x00000000#32) (ix2 p q) = ∑ j : Fin 64, l (ix2 p j) * r (ix2 j q) := by
  refine (Ideal.matmul_constant_zero_apply (φ₁ := .f32) (φ₂ := .f32) Ds none l r (ix2 p q)).trans ?_
  rw [← Equiv.sum_comp (contrEquiv1 Ds 64 rfl rfl).symm]
  refine Finset.sum_congr rfl fun k _ => ?_
  have hk := contrEquiv1_symm_val Ds 64 rfl rfl k
  have el : (Ds).lhsIdx (ix2 p q) ((contrEquiv1 Ds 64 rfl rfl).symm k) = ix2 p k := funext fun a => Fin.ext (by
    match a with
    | ⟨0, _⟩ => exact ds_lhs0 _ _
    | ⟨1, _⟩ => exact (ds_lhs1 _ _).trans hk)
  have er : (Ds).rhsIdx (ix2 p q) ((contrEquiv1 Ds 64 rfl rfl).symm k) = ix2 k q := funext fun a => Fin.ext (by
    match a with
    | ⟨0, _⟩ => exact (ds_rhs0 _ _).trans hk
    | ⟨1, _⟩ => exact ds_rhs1 _ _)
  rw [el, er]

/-- The [128, 4096] by [4096, 4096] product into the zero accumulator, at entry (p, q): the sum over the 4096 inputs. -/
theorem big_apply (l : Vec Ideal S128x4096 .bf16) (r : Vec Ideal S4096x4096 .bf16) (p : Fin 128) (q : Fin 4096) :
    matmul (φ₁ := .bf16) (φ₂ := .bf16) Db none l r (constant (F := Ideal) S128x4096 .f32 0x00000000#32) (ix2 p q) = ∑ k : Fin 4096, l (ix2 p k) * r (ix2 k q) := by
  refine (Ideal.matmul_constant_zero_apply (φ₁ := .bf16) (φ₂ := .bf16) Db none l r (ix2 p q)).trans ?_
  rw [← Equiv.sum_comp (contrEquiv1 Db 4096 rfl rfl).symm]
  refine Finset.sum_congr rfl fun k _ => ?_
  have hk := contrEquiv1_symm_val Db 4096 rfl rfl k
  have el : (Db).lhsIdx (ix2 p q) ((contrEquiv1 Db 4096 rfl rfl).symm k) = ix2 p k := funext fun a => Fin.ext (by
    match a with
    | ⟨0, _⟩ => exact db_lhs0 _ _
    | ⟨1, _⟩ => exact (db_lhs1 _ _).trans hk)
  have er : (Db).rhsIdx (ix2 p q) ((contrEquiv1 Db 4096 rfl rfl).symm k) = ix2 k q := funext fun a => Fin.ext (by
    match a with
    | ⟨0, _⟩ => exact (db_rhs0 _ _).trans hk
    | ⟨1, _⟩ => exact db_rhs1 _ _)
  rw [el, er]

/-! ## The body's stored value at an entry -/

/-- Entry (p, q) of what the body stores, from the blocks it loads: `cl` the cluster rows (loaded twice), `sL`, `sR` the
    style tables, `x` the data rows, `w` the weight. -/
theorem payload_apply (cl : Vec Ideal S128x64 .f32) (sL : Vec Ideal S64x4096 .f32) (x : Vec Ideal S128x4096 .f32)
    (w : Vec Ideal S4096x4096 .bf16) (cl' : Vec Ideal S128x64 .f32) (sR : Vec Ideal S64x4096 .f32) (p : Fin 128) (q : Fin 4096) :
    k0_pay1 (F := Ideal) cl sL x w cl' sR (ix2 p q)
      = (∑ k : Fin 4096, (x (ix2 p k) * ∑ j : Fin 64, cl (ix2 p j) * sL (ix2 j k)) * w (ix2 k q)) * ∑ j : Fin 64, cl' (ix2 p j) * sR (ix2 j q) := by
  unfold k0_pay1
  rw [mulf_apply, small_apply cl' sR p q, big_apply _ _ p q]
  refine congrArg (· * _) (Finset.sum_congr rfl fun k _ => ?_)
  rw [truncf_apply, mulf_apply, small_apply cl sL p k, shapeCast_self]

/-- The same entry as the specification's value at row `b` of the whole arrays, when the point's data and cluster blocks are
    rows of the arrays starting where row `p` of the block is row `b` of the array, and the weight and the two style tables are
    loaded whole. -/
theorem point_eq (X : (⟨2, ![8192, 4096]⟩ : Shape).Idx → EReal) (C : (⟨2, ![8192, 64]⟩ : Shape).Idx → EReal)
    (W : (⟨2, ![4096, 4096]⟩ : Shape).Idx → EReal) (L R : (⟨2, ![64, 4096]⟩ : Shape).Idx → EReal)
    (x0 : Vec Ideal S128x4096 .f32) (x1 : Vec Ideal S128x64 .f32) (x2 : Vec Ideal S4096x4096 .bf16) (x3 x4 : Vec Ideal S64x4096 .f32)
    (p : Fin 128) (q : Fin 4096) (b : Fin 8192)
    (h0 : ∀ k : Fin 4096, x0 (ix2 p k) = X (ix2 b k)) (h1 : ∀ j : Fin 64, x1 (ix2 p j) = C (ix2 b j))
    (h2 : ∀ k o : Fin 4096, x2 (ix2 k o) = W (ix2 k o)) (h3 : ∀ (j : Fin 64) (k : Fin 4096), x3 (ix2 j k) = L (ix2 j k))
    (h4 : ∀ (j : Fin 64) (k : Fin 4096), x4 (ix2 j k) = R (ix2 j k)) :
    k0_pay1 (F := Ideal) x1 x3 x0 x2 x1 x4 (ix2 p q) = Cert.Spec.modAt X C W L R b q := by
  rw [payload_apply]
  simp only [h0, h1, h2, h3, h4]
  rfl

end Cert.KernelIdeal.At

end
-- ==== Proof.RefAt.lean ====
/-
  The reference read at an entry, on the extended reals.

  The reference forms the two [8192, 4096] mixtures `cl · sL` and `cl · sR` whole (each entry a sum over the 64 clusters),
  scales the data entry by entry by the first, multiplies the scaled data into the weight (each entry a sum over the 4096
  inputs) and scales the product entry by entry by the second. Read at entry (b, o) that is the specification's value, term
  for term: only the spelling of the operand indices differs.
-/
import proofs.«175183_j74191265071761_2_alg».proof.Proof.Gen.ReferenceIdeal.Read
import proofs.«175183_j74191265071761_2_alg».proof.Proof.Spec

noncomputable section

namespace Cert.ReferenceIdeal.RefValue

open Cert.ReferenceIdeal Cert.ReferenceIdeal.Read Idealize.ShloMosaic Idealize.ShloMosaic.ValueIdx

/-! ## The products' operand indices at an entry given by its coordinates -/

theorem l3 (b : Fin 8192) (o k : Fin 4096) : lidx_main_v3 (ix2 b o) k = ix2 b k :=
  funext fun a => Fin.ext (by match a with | ⟨0, _⟩ => rfl | ⟨1, _⟩ => rfl)
theorem r3 (b : Fin 8192) (o k : Fin 4096) : ridx_main_v3 (ix2 b o) k = ix2 k o :=
  funext fun a => Fin.ext (by match a with | ⟨0, _⟩ => rfl | ⟨1, _⟩ => rfl)
theorem l0 (b : Fin 8192) (k : Fin 4096) (j : Fin 64) : lidx_main_v0 (ix2 b k) j = ix2 b j :=
  funext fun a => Fin.ext (by match a with | ⟨0, _⟩ => rfl | ⟨1, _⟩ => rfl)
theorem r0 (b : Fin 8192) (k : Fin 4096) (j : Fin 64) : ridx_main_v0 (ix2 b k) j = ix2 j k :=
  funext fun a => Fin.ext (by match a with | ⟨0, _⟩ => rfl | ⟨1, _⟩ => rfl)
theorem l1 (b : Fin 8192) (o : Fin 4096) (j : Fin 64) : lidx_main_v1 (ix2 b o) j = ix2 b j :=
  funext fun a => Fin.ext (by match a with | ⟨0, _⟩ => rfl | ⟨1, _⟩ => rfl)
theorem r1 (b : Fin 8192) (o : Fin 4096) (j : Fin 64) : ridx_main_v1 (ix2 b o) j = ix2 j o :=
  funext fun a => Fin.ext (by match a with | ⟨0, _⟩ => rfl | ⟨1, _⟩ => rfl)

/-! ## The reference's result is the specification -/

/-- The last stage of the reference, as a function of the five arguments, is the specification's array. -/
theorem reference_eq (x0 : (⟨S8192x4096, .f32⟩ : BufTy).Contents (Elt Ideal)) (x1 : (⟨S8192x64, .f32⟩ : BufTy).Contents (Elt Ideal))
    (x2 : (⟨S4096x4096, .f32⟩ : BufTy).Contents (Elt Ideal)) (x3 x4 : (⟨S64x4096, .f32⟩ : BufTy).Contents (Elt Ideal)) :
    val_main_v4 (F := Ideal) x0 x1 x2 x3 x4 = Cert.Spec.modulated x0 x1 x2 x3 x4 := by
  funext i
  obtain ⟨b, o, rfl⟩ : ∃ (b : Fin 8192) (o : Fin 4096), i = ix2 b o := ⟨i 0, i 1, eq_ix2 i⟩
  rw [val_main_v4_apply, val_main_v3_apply, val_main_v1_apply]
  simp only [val_main_v2_apply, val_main_v0_apply, l3, r3, l0, r0, l1, r1]
  rfl

end Cert.ReferenceIdeal.RefValue

end
-- ==== Proof.Whole.lean ====
/-
  The kernel's result array as one function of the argument arrays.

  The grid has 64 points; point `t` is given rows `128 t … 128 t + 127` of the data and of the cluster weights, the whole
  weight (as the host left it after the change of float format, which is the identity on the extended reals) and the two
  whole style tables, and writes rows `128 t … 128 t + 127` of the result. Entry (p, q) of what it writes is the
  specification's value at row `128 t + p`, column `q`, and the 64 row blocks tile the [8192, 4096] result, so the
  array ends holding the specification's array of the arguments.
-/
import proofs.«175183_j74191265071761_2_alg».proof.Proof.Gen.KernelIdeal.Value
import proofs.«175183_j74191265071761_2_alg».proof.Proof.KernelAt
import proofs.«175183_j74191265071761_2_alg».proof.Proof.Spec
import Idealize.ShloMosaic.Lib.StableHlo.Run

noncomputable section

namespace Cert.KernelIdeal.Whole

open Cert.KernelIdeal Cert.KernelIdeal.Gen Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block index of every window at every point, decided over the 64 points: the data, the cluster weights and the
    result move one block of rows per point; the weight and the style tables stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## What the region finds in the weight's buffer -/

/-- The host's change of float format leaves the weight's values as they are. -/
theorem V_weight (c : Dev nD) :
    (V m c main_v0 : S4096x4096.Idx → EReal) = (m ((c : Thread nD τ).loc main_arg2) : S4096x4096.Idx → EReal) := by
  dsimp only [Gen.V, Gen.hostOps0]
  after_results
  rfl

/-! ## Each input block read at an entry -/

/-- Row `p` of the data block at point `t` is row `128 t + p` of the data. -/
theorem data_apply (c : Dev nD) (t : Fin cfg0.N) (p : Fin 128) (k : Fin 4096) (b : Fin 8192) (hb : b.val = t.val * 128 + p.val) :
    iblk m c 0 t (ix2 p k) = V m c main_arg0 (ix2 b k) := by
  obtain ⟨e0, e1, -⟩ := idx_facts t
  show V m c main_arg0 (((cfg0.win 0).blk t).view.emb (ix2 p k)) = V m c main_arg0 (ix2 b k)
  refine congrArg _ (funext fun a => Fin.ext ?_)
  match a with
  | ⟨0, _⟩ => show win0_0.index t (0 : Fin 2) * 128 + 1 * p.val = b.val; omega
  | ⟨1, _⟩ => show win0_0.index t (1 : Fin 2) * 4096 + 1 * k.val = k.val; omega

/-- Row `p` of the cluster block at point `t` is row `128 t + p` of the cluster weights. -/
theorem cluster_apply (c : Dev nD) (t : Fin cfg0.N) (p : Fin 128) (j : Fin 64) (b : Fin 8192) (hb : b.val = t.val * 128 + p.val) :
    iblk m c 1 t (ix2 p j) = V m c main_arg1 (ix2 b j) := by
  obtain ⟨-, -, e0, e1, -⟩ := idx_facts t
  show V m c main_arg1 (((cfg0.win 1).blk t).view.emb (ix2 p j)) = V m c main_arg1 (ix2 b j)
  refine congrArg _ (funext fun a => Fin.ext ?_)
  match a with
  | ⟨0, _⟩ => show win0_1.index t (0 : Fin 2) * 128 + 1 * p.val = b.val; omega
  | ⟨1, _⟩ => show win0_1.index t (1 : Fin 2) * 64 + 1 * j.val = j.val; omega

/-- The weight's block at every point is the whole buffer. -/
theorem weight_apply (c : Dev nD) (t : Fin cfg0.N) (k o : Fin 4096) :
    iblk m c 2 t (ix2 k o) = V m c main_v0 (ix2 k o) := by
  obtain ⟨-, -, -, -, e0, e1, -⟩ := idx_facts t
  show V m c main_v0 (((cfg0.win 2).blk t).view.emb (ix2 k o)) = V m c main_v0 (ix2 k o)
  refine congrArg _ (funext fun a => Fin.ext ?_)
  match a with
  | ⟨0, _⟩ => show win0_2.index t (0 : Fin 2) * 4096 + 1 * k.val = k.val; omega
  | ⟨1, _⟩ => show win0_2.index t (1 : Fin 2) * 4096 + 1 * o.val = o.val; omega

/-- The left style table's block at every point is the whole table. -/
theorem styleL_apply (c : Dev nD) (t : Fin cfg0.N) (j : Fin 64) (k : Fin 4096) :
    iblk m c 3 t (ix2 j k) = V m c main_arg3 (ix2 j k) := by
  obtain ⟨-, -, -, -, -, -, e0, e1, -⟩ := idx_facts t
  show V m c main_arg3 (((cfg0.win 3).blk t).view.emb (ix2 j k)) = V m c main_arg3 (ix2 j k)
  refine congrArg _ (funext fun a => Fin.ext ?_)
  match a with
  | ⟨0, _⟩ => show win0_3.index t (0 : Fin 2) * 64 + 1 * j.val = j.val; omega
  | ⟨1, _⟩ => show win0_3.index t (1 : Fin 2) * 4096 + 1 * k.val = k.val; omega

/-- The right style table's block at every point is the whole table. -/
theorem styleR_apply (c : Dev nD) (t : Fin cfg0.N) (j : Fin 64) (k : Fin 4096) :
    iblk m c 4 t (ix2 j k) = V m c main_arg4 (ix2 j k) := by
  obtain ⟨-, -, -, -, -, -, -, -, e0, e1, -⟩ := idx_facts t
  show V m c main_arg4 (((cfg0.win 4).blk t).view.emb (ix2 j k)) = V m c main_arg4 (ix2 j k)
  refine congrArg _ (funext fun a => Fin.ext ?_)
  match a with
  | ⟨0, _⟩ => show win0_4.index t (0 : Fin 2) * 64 + 1 * j.val = j.val; omega
  | ⟨1, _⟩ => show win0_4.index t (1 : Fin 2) * 4096 + 1 * k.val = k.val; omega

/-- Entry (p, q) of the result's block at point `t` sits at row `128 t + p`, column `q` of the result. -/
theorem result_emb (t : Fin cfg0.N) (p : Fin 128) (q : Fin 4096) (b : Fin 8192) (hb : b.val = t.val * 128 + p.val) :
    ((cfg0.win 5).blk t).view.emb (ix2 p q) = (ix2 b q : S8192x4096.Idx) := by
  obtain ⟨-, -, -, -, -, -, -, -, -, -, e0, e1⟩ := idx_facts t
  refine funext fun a => Fin.ext ?_
  match a with
  | ⟨0, _⟩ => show win0_5.index t (0 : Fin 2) * 128 + 1 * p.val = b.val; omega
  | ⟨1, _⟩ => show win0_5.index t (1 : Fin 2) * 4096 + 1 * q.val = q.val; omega

/-! ## What a point writes back -/

/-- The specification's array of the arrays as the region finds them. -/
abbrev found (c : Dev nD) : S8192x4096.Idx → EReal :=
  Cert.Spec.modulated (V m c main_arg0) (V m c main_arg1) (V m c main_v0) (V m c main_arg3) (V m c main_arg4)

/-- Point `t` writes back block `t` of the specification's array. -/
theorem flushed_eq (c : Dev nD) (t : Fin cfg0.N) :
    (dats m 0 c).flushed 5 t = ((cfg0.win 5).blk t).view.read (Elt Ideal) (found m c) := by
  rw [Cert.KernelIdeal.Value.flushed5]
  unfold out0_5
  rw [View.canon_unit_zero hz]
  simp only [View.ld_unit_zero (S := S128x64) hz, View.ld_unit_zero (S := S64x4096) hz, View.ld_unit_zero (S := S128x4096) hz,
    View.ld_unit_zero (S := S4096x4096) hz]
  funext j
  obtain ⟨p, q, rfl⟩ : ∃ (p : Fin 128) (q : Fin 4096), j = ix2 p q := ⟨j 0, j 1, eq_ix2 j⟩
  have hN : grid0.N = 64 := N_0
  have ht : t.val < 64 := hN ▸ t.isLt
  obtain ⟨b, hb⟩ : ∃ b : Fin 8192, b.val = t.val * 128 + p.val := ⟨⟨t.val * 128 + p.val, by have := p.isLt; omega⟩, rfl⟩
  show k0_pay1 (F := Ideal) (iblk m c 1 t) (iblk m c 3 t) (iblk m c 0 t) (iblk m c 2 t) (iblk m c 1 t) (iblk m c 4 t) (ix2 p q)
    = found m c (((cfg0.win 5).blk t).view.emb (ix2 p q))
  rw [result_emb t p q b hb]
  exact Cert.KernelIdeal.At.point_eq (V m c main_arg0) (V m c main_arg1) (V m c main_v0) (V m c main_arg3) (V m c main_arg4)
    (iblk m c 0 t) (iblk m c 1 t) (iblk m c 2 t) (iblk m c 3 t) (iblk m c 4 t) p q b
    (fun k => data_apply m c t p k b hb) (fun j => cluster_apply m c t p j b hb) (fun k o => weight_apply m c t k o)
    (fun j k => styleL_apply m c t j k) (fun j k => styleR_apply m c t j k)

/-! ## The blocks tile the result -/

/-- An index of the result is in point `t`'s block iff each coordinate is in the block's range on its axis. -/
theorem mem_blk (t : Fin cfg0.N) (i : S8192x4096.Idx) :
    i ∈ ((cfg0.win 5).blk t).view.set ↔ ∀ a : Fin 2, win0_5.index t a * S128x4096.size a ≤ (i a).val ∧ (i a).val < win0_5.index t a * S128x4096.size a + S128x4096.size a := by
  show i ∈ ((View.whole main_v1).slice (win0_5.rect t)).set ↔ _
  rw [View.set_slice_whole, Rect.mem_set_unit]
  exact Iff.rfl

/-- Row `r` of the result is in the block of point `r / 128`. -/
theorem cover (i : S8192x4096.Idx) : ∃ t : Fin cfg0.N, (cfg0.win 5).flush t = true ∧ i ∈ ((cfg0.win 5).blk t).view.set := by
  have hi0 : (i 0).val < 8192 := (i 0).isLt
  have hi1 : (i 1).val < 4096 := (i 1).isLt
  have hN : grid0.N = 64 := N_0
  obtain ⟨t, ht⟩ : ∃ t : Fin cfg0.N, t.val = (i 0).val / 128 := ⟨⟨(i 0).val / 128, by show (i 0).val / 128 < grid0.N; omega⟩, rfl⟩
  obtain ⟨-, -, -, -, -, -, -, -, -, -, e0, e1⟩ := idx_facts t
  refine ⟨t, flush0_5 t, ?_⟩
  rw [mem_blk]
  intro a
  match a with
  | ⟨0, _⟩ => show win0_5.index t (0 : Fin 2) * 128 ≤ (i 0).val ∧ (i 0).val < win0_5.index t (0 : Fin 2) * 128 + 128; omega
  | ⟨1, _⟩ => show win0_5.index t (1 : Fin 2) * 4096 ≤ (i 1).val ∧ (i 1).val < win0_5.index t (1 : Fin 2) * 4096 + 4096; omega

/-! ## The result array, and the run -/

/-- After the run the result array is the specification's array of the arguments as launched. -/
theorem final (c : Dev nD) :
    (dats m 0 c).arrAt 5 cfg0.N = Cert.Spec.modulated (m ((c : Thread nD τ).loc main_arg0)) (m ((c : Thread nD τ).loc main_arg1))
      (m ((c : Thread nD τ).loc main_arg2)) (m ((c : Thread nD τ).loc main_arg3)) (m ((c : Thread nD τ).loc main_arg4)) := by
  have h := (dats m 0 c).arrAt_eq_of_cover 5 (found m c) (fun t _ => flushed_eq m c t) cover
  rw [h]
  unfold found
  rw [V_main_arg0, V_main_arg1, V_weight, V_main_arg3, V_main_arg4]

/-- Every weakly fair execution of the kernel's program ends with the result array at the specification's array of the
    arguments, the arguments unchanged. -/
theorem run : θ_run defs (onTc (τ := τ) (main (F := Ideal))) ⟨m, fun _ => 0, ρ⟩ fun r => ∀ c : Dev nD,
      r.2.mem ((c : Thread nD τ).loc main_v1) = Cert.Spec.modulated (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Whole

end
-- ==== Proof.lean ====
/-
  The certificate of a doubly modulated linear layer: with `x` the [8192, 4096] data, `cl` the [8192, 64] cluster weights,
  `w` the [4096, 4096] weight and `sL`, `sR` the two [64, 4096] style tables, both programs compute

      out[b, o] = (∑ k, (x[b, k] · ∑ j, cl[b, j] · sL[j, k]) · w[k, o]) · ∑ j, cl[b, j] · sR[j, o]

  (Proof/Spec.lean). The reference forms the two mixtures `cl · sL` and `cl · sR` whole and multiplies the scaled data into the
  weight in one product (Proof/RefAt.lean: its last stage read at an entry is the formula above, term for term). The kernel
  works on 128 rows at a time over a grid of 64 points, rounding the scaled data and the weight to a shorter float format on
  the way into the large product — on the extended reals a change of format is the identity — and forming every product into
  a zero accumulator, which is the plain sum (Proof/KernelAt.lean: one point's stored value at an entry of its block;
  Proof/Whole.lean: the 64 row blocks are rows `128 t … 128 t + 127` of the formula's array and tile the result, so the
  result array ends at the formula's array of the arguments). Row `b` of the result depends on row `b` of `x` and `cl` only, so
  cutting the rows into blocks changes nothing, and no law of arithmetic beyond reading both sides at an entry is used; the
  precondition that the inputs are finite is not needed.

  The three programs' frames are the generated ones (the reference's is its generated run with the result dropped); the ideal
  pass rewrote nothing, so `preserves` is trivial.
-/
import proofs.«175183_j74191265071761_2_alg».proof.Defs
import proofs.«175183_j74191265071761_2_alg».proof.Proof.Gen.Kernel
import proofs.«175183_j74191265071761_2_alg».proof.Proof.Gen.Kernel.Skeleton
import proofs.«175183_j74191265071761_2_alg».proof.Proof.Gen.Kernel.Launch
import proofs.«175183_j74191265071761_2_alg».proof.Proof.Gen.Kernel.Points
import proofs.«175183_j74191265071761_2_alg».proof.Proof.Gen.Kernel.Frame
import proofs.«175183_j74191265071761_2_alg».proof.Proof.Gen.KernelIdeal
import proofs.«175183_j74191265071761_2_alg».proof.Proof.Gen.KernelIdeal.Skeleton
import proofs.«175183_j74191265071761_2_alg».proof.Proof.Gen.KernelIdeal.Launch
import proofs.«175183_j74191265071761_2_alg».proof.Proof.Gen.KernelIdeal.Points
import proofs.«175183_j74191265071761_2_alg».proof.Proof.Gen.KernelIdeal.Frame
import proofs.«175183_j74191265071761_2_alg».proof.Proof.Gen.ReferenceIdeal
import proofs.«175183_j74191265071761_2_alg».proof.Proof.Gen.Pre_finite_inputs
import proofs.«175183_j74191265071761_2_alg».proof.Proof.Gen.KernelIdeal.Value
import proofs.«175183_j74191265071761_2_alg».proof.Proof.Gen.ReferenceIdeal.Run
import proofs.«175183_j74191265071761_2_alg».proof.Proof.Gen.ReferenceIdeal.Read
import proofs.«175183_j74191265071761_2_alg».proof.Proof.Spec
import proofs.«175183_j74191265071761_2_alg».proof.Proof.KernelAt
import proofs.«175183_j74191265071761_2_alg».proof.Proof.RefAt
import proofs.«175183_j74191265071761_2_alg».proof.Proof.Whole
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the five arguments the kernel's result array and the reference's both end at the formula's
    array of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.reference_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
